-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S4096x2048 : Shape := ⟨2, ![4096, 2048]⟩
abbrev S4096 : Shape := ⟨1, ![4096]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S16384x2048 .f32) (main_arg1 : FVec F S4096x2048 .f32) (main_arg2 : FVec F S4096 .f32) (main_arg3 : FVec F S4096 .f32) (main_arg4 : FVec F S4096 .f32) (main_arg5 : FVec F S4096 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x2048 : Shape := ⟨2, ![16384, 2048]⟩
abbrev S4096x2048 : Shape := ⟨2, ![4096, 2048]⟩
abbrev S4096 : Shape := ⟨1, ![4096]⟩
abbrev S1x4096 : Shape := ⟨2, ![1, 4096]⟩
abbrev S16384x4096 : Shape := ⟨2, ![16384, 4096]⟩
abbrev S128x2048 : Shape := ⟨2, ![128, 2048]⟩
abbrev S2048x2048 : Shape := ⟨2, ![2048, 2048]⟩
abbrev S1x2048 : Shape := ⟨2, ![1, 2048]⟩
abbrev S128x16x128 : Shape := ⟨3, ![128, 16, 128]⟩
abbrev S128x16 : Shape := ⟨2, ![128, 16]⟩
abbrev S128x16x1 : Shape := ⟨3, ![128, 16, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .bf16⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S16384x4096, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S128x16x128 : S128x2048.ShapeCasts S128x16x128
  reduces_S128x16x128_S128x16 : S128x16x128.Reduces [2] S128x16
  shapeCasts_S128x16_S128x16x1 : S128x16.ShapeCasts S128x16x1
  broadcasts_S128x16x1_S128x16x128 : S128x16x1.Broadcasts S128x16x128
  shapeCasts_S128x16x128_S128x2048 : S128x16x128.ShapeCasts S128x2048
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S4096x2048.size a
  hwx0_1 : ∀ i : grid0.Coords, EltTy.bits .bf16 = 32 ∨ (Rect.block (s := S4096x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S16384x4096.size a
  hwx0_6 : ∀ i : grid0.Coords, EltTy.bits .f32 = 32 ∨ (Rect.block (s := S16384x4096) S128x2048.size (cc0_transform_6 i) (hinb0_6 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S2048x4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x32x128, .f32⟩
  | .hbm, ⟨12, _⟩ => ⟨S_, .f32⟩
  | .hbm, ⟨13, _⟩ => ⟨S16384x32, .f32⟩
  | .hbm, ⟨14, _⟩ => ⟨S16384x32x1, .f32⟩
  | .hbm, ⟨15, _⟩ => ⟨S_, .f32⟩
  | .hbm, ⟨16, _⟩ => ⟨S16384x32x1, .f32⟩
  | .hbm, ⟨17, _⟩ => ⟨S16384x32x1, .f32⟩
  | .hbm, ⟨18, _⟩ => ⟨S16384x32x128, .f32⟩
  | .hbm, ⟨19, _⟩ => ⟨S16384x32x128, .f32⟩
  | .hbm, ⟨20, _⟩ => ⟨S16384x32x128, .f32⟩
  | .hbm, ⟨21, _⟩ => ⟨S_, .f32⟩
  | .hbm, ⟨22, _⟩ => ⟨S16384x32, .f32⟩
  | .hbm, ⟨23, _⟩ => ⟨S16384x32x1, .f32⟩
  | .hbm, ⟨24, _⟩ => ⟨S_, .f32⟩
  | .hbm, ⟨25, _⟩ => ⟨S16384x32x1, .f32⟩
  | .hbm, ⟨26, _⟩ => ⟨S16384x32x1, .f32⟩
  | .hbm, ⟨27, _⟩ => ⟨S16384x32x128, .f32⟩
  | .hbm, ⟨28, _⟩ => ⟨S16384x32x128, .f32⟩
  | .hbm, ⟨29, _⟩ => ⟨S_, .f32⟩
  | .hbm, ⟨30, _⟩ => ⟨S16384x32x1, .f32⟩
  | .hbm, ⟨31, _⟩ => ⟨S16384x32x1, .f32⟩
  | .hbm, ⟨32, _⟩ => ⟨S16384x32x1, .f32⟩
  | .hbm, ⟨33, _⟩ => ⟨S16384x32x128, .f32⟩
  | .hbm, ⟨34, _⟩ => ⟨S16384x32x128, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S1x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S_, .f32⟩
  | .hbm, ⟨60, _⟩ => ⟨S16384x4096, .f32⟩
  | .hbm, ⟨61, _⟩ => ⟨S16384x4096, .f32⟩
  | .hbm, ⟨62, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x32x128 : S16384x4096.ShapeCasts S16384x32x128
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  shapeCasts_S16384x32x128_S16384x4096 : S16384x32x128.ShapeCasts S16384x4096
  bcast_S_S16384x4096 : S_.BroadcastsInDim S16384x4096 (![] : Fin 0 → Fin S16384x4096.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.GroupGate.lean ====
/-
  The function both programs compute, stated once over the extended reals.

  A row of activations is pushed through a dense layer (a sum of products over the input features plus a bias), the
  resulting columns are cut into consecutive groups of 128, each group is normalised by its own mean and its own
  (biased) variance plus a small constant under an inverse square root, the normalised value is scaled and shifted
  column by column, and the result goes twice through the gate v ↦ v · logistic v, with a column-wise multiplier
  between the two gates.  An output entry at row r and column q therefore depends on row r of the activations and
  on the 128 weight rows and biases of the group that holds q, and on the three per-column vectors at q.
-/
import Idealize.ShloMosaic.PureOps.Ideal
import Idealize.ShloMosaic.Lib.ValueIdx

noncomputable section

open scoped BigOperators

namespace Cert.GroupGate

open Idealize.ShloMosaic Idealize.ShloMosaic.ValueIdx

/-- The group size as both programs spell it: the f32 word of 128, the divisor of the mean and of the variance. -/
def c128 : EReal := Ideal.ofBits .f32 0x43000000#32

/-- The constant added to the variance under the inverse square root, as both programs spell it. -/
def eps : EReal := Ideal.ofBits .f32 0x3727C5AC#32

/-- The gate v · logistic v. -/
def swish (v : EReal) : EReal := v * Ideal.logistic v

/-- The mean of a group of 128 values. -/
def gmean (y : Fin 128 → EReal) : EReal := Ideal.div (∑ k : Fin 128, y k) c128

/-- The biased variance of a group: the mean of the squared deviations from the group's mean. -/
def gvar (y : Fin 128 → EReal) : EReal :=
  Ideal.div (∑ k : Fin 128, (y k - gmean y) * (y k - gmean y)) c128

/-- Lane l of a group, normalised: its deviation from the mean times the inverse square root of variance plus eps. -/
def gnorm (y : Fin 128 → EReal) (l : Fin 128) : EReal :=
  (y l - gmean y) * Ideal.rsqrt (gvar y + eps)

/-- Lane l of a group after normalisation, scale gw and shift gb, the gate, the multiplier mw and the gate again. -/
def gate (y : Fin 128 → EReal) (l : Fin 128) (gw gb mw : EReal) : EReal :=
  swish (swish (gnorm y l * gw + gb) * mw)

/-- One entry of a dense layer: the sum over the input features of activation times weight, plus the bias. -/
def dense {K : ℕ} (xr wq : Fin K → EReal) (bq : EReal) : EReal := (∑ k : Fin K, xr k * wq k) + bq

/-- Among n columns (n a multiple of 128), the column at lane l of the group that holds column q. -/
def grp (n : ℕ) (hn : 128 ∣ n) (q : Fin n) (l : Fin 128) : Fin n :=
  ⟨128 * (q.val / 128) + l.val, by
    obtain ⟨c, rfl⟩ := hn
    have hq := q.isLt
    have hl := l.isLt
    omega⟩

theorem grp_val (n : ℕ) (hn : 128 ∣ n) (q : Fin n) (l : Fin 128) : (grp n hn q l).val = 128 * (q.val / 128) + l.val := rfl

/-- The lane of column q inside its group. -/
def lane {n : ℕ} (q : Fin n) : Fin 128 := ⟨q.val % 128, Nat.mod_lt _ (by decide)⟩

theorem lane_val {n : ℕ} (q : Fin n) : (lane q).val = q.val % 128 := rfl

theorem dvd4096 : 128 ∣ 4096 := ⟨32, rfl⟩
theorem dvd2048 : 128 ∣ 2048 := ⟨16, rfl⟩

/-- The whole result: entry (r, q) of the [16384, 4096] array from the activations x, the weights w (one row per output
    column), the bias b and the per-column scale gw, shift gb and multiplier mw. -/
def G (x : (⟨2, ![16384, 2048]⟩ : Shape).Idx → EReal) (w : (⟨2, ![4096, 2048]⟩ : Shape).Idx → EReal)
    (b gw gb mw : (⟨1, ![4096]⟩ : Shape).Idx → EReal) : (⟨2, ![16384, 4096]⟩ : Shape).Idx → EReal :=
  fun i =>
    gate (fun l => dense (fun k : Fin 2048 => x (ix2 (i 0) k)) (fun k : Fin 2048 => w (ix2 (grp 4096 dvd4096 (i 1) l) k))
        (b (ix1 (grp 4096 dvd4096 (i 1) l))))
      (lane (i 1 : Fin 4096)) (gw (ix1 (i 1))) (gb (ix1 (i 1))) (mw (ix1 (i 1)))

/-- The f32 word of one denotes the number one (the logistic's numerator and the one under it, in the spelling
    that divides one by one plus an exponential). -/
theorem ofBits_one : Ideal.ofBits .f32 0x3F800000#32 = 1 := by
  simp [Ideal.ofBits, Ideal.ieee, -EReal.coe_mul]; norm_num

/-- The gate in the spelling that negates, exponentiates, adds one and divides one by the sum. -/
theorem swish_spelt (v : EReal) :
    v * Ideal.div (Ideal.ofBits .f32 0x3F800000#32) (Ideal.ofBits .f32 0x3F800000#32 + Ideal.exp (-v)) = swish v := by
  rw [ofBits_one]; rfl

end Cert.GroupGate

end
-- ==== Proof.LibGroupAxis.lean ====
/-
  General lemmas for kernels that cut the columns of an [a, b] array into g consecutive groups of n (b = g · n) and
  reduce along each group, read at one index.

  * `shapeCast_ab_agn_apply`: an [a, b] array recast as [a, g, n] reads, at (p, gi, l), the array at (p, gi · n + l).
  * `shapeCast_agn_ab_apply`: an [a, g, n] array recast as [a, b] reads, at (p, gi · n + l), the array at (p, gi, l).
  * `lastSum3_apply`: at the exact (extended-real) instance, the sum of an [a, g, n] array along its last axis is,
    at (p, gi), the plain sum over k of the array at (p, gi, k).
  * `shapeCast_ag_ag1_apply`: an [a, g] array recast as [a, g, 1] (a kept unit axis) reads, at (p, gi, u), the array
    at (p, gi).
  * `broadcastTo_ag1_agn_apply`: an [a, g, 1] array repeated along its unit axis to [a, g, n] reads, at (p, gi, l),
    the array at (p, gi, 0).
-/
import Idealize.ShloMosaic.Lib.ValueIdx
import Idealize.ShloMosaic.Lib.Pipeline.Value
import Idealize.ShloMosaic.PureOps.Ideal.Laws

noncomputable section

open scoped BigOperators

namespace Cert.GroupAxis

open Idealize.ShloMosaic Idealize.ShloMosaic.ValueIdx

variable {α : Type} {a b g n : ℕ}

/-- An [a, b] array recast as [a, g, n] (b = g · n): position (p, gi, l) holds the array's entry at row p and column
    gi · n + l, the two indices having one row-major position. -/
theorem shapeCast_ab_agn_apply (x : (⟨2, ![a, b]⟩ : Shape).Idx → α) (h : (⟨2, ![a, b]⟩ : Shape).ShapeCasts ⟨3, ![a, g, n]⟩)
    (hb : b = g * n) (p : Fin a) (gi : Fin g) (l : Fin n) (q : Fin b) (hq : q.val = gi.val * n + l.val) :
    shapeCast ⟨3, ![a, g, n]⟩ x h (ix3 p gi l) = x (ix2 p q) :=
  shapeCast_apply x h _ _ (by
    rw [Shape.rowMajor_val_two, Shape.rowMajor_val_three]
    show p.val * b + q.val = (p.val * g + gi.val) * n + l.val
    rw [hq, hb]; ring)

/-- An [a, g, n] array recast as [a, b] (b = g · n): row p, column gi · n + l holds the entry at (p, gi, l). -/
theorem shapeCast_agn_ab_apply (x : (⟨3, ![a, g, n]⟩ : Shape).Idx → α) (h : (⟨3, ![a, g, n]⟩ : Shape).ShapeCasts ⟨2, ![a, b]⟩)
    (hb : b = g * n) (p : Fin a) (q : Fin b) (gi : Fin g) (l : Fin n) (hq : q.val = gi.val * n + l.val) :
    shapeCast ⟨2, ![a, b]⟩ x h (ix2 p q) = x (ix3 p gi l) :=
  shapeCast_apply x h _ _ (by
    rw [Shape.rowMajor_val_three, Shape.rowMajor_val_two]
    show (p.val * g + gi.val) * n + l.val = p.val * b + q.val
    rw [hq, hb]; ring)

/-- The sum of an [a, g, n] array along its last axis, at (p, gi): the sum over k of the array at (p, gi, k). -/
theorem lastSum3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.add.neutral φ hφ)
    (p : Fin a) (gi : Fin g) :
    multiReduction .add [2] ⟨2, ![a, g]⟩ src acc h hφ hacc (ix2 p gi) = ∑ k : Fin n, src (ix3 p gi k) := by
  refine (Ideal.multiReduction_add_single src acc h hφ hacc (ix2 p gi)).trans ?_
  refine Finset.sum_congr rfl fun k _ => congrArg src (funext fun c => Fin.ext ?_)
  rw [h.lift_val]
  match c with
  | ⟨0, _⟩ => rfl
  | ⟨1, _⟩ => rfl
  | ⟨2, _⟩ => rfl

/-- An [a, g] array recast as [a, g, 1] reads, at (p, gi, u), the array at (p, gi), whatever the unit coordinate u. -/
theorem shapeCast_ag_ag1_apply (x : (⟨2, ![a, g]⟩ : Shape).Idx → α) (h : (⟨2, ![a, g]⟩ : Shape).ShapeCasts ⟨3, ![a, g, 1]⟩)
    (p : Fin a) (gi : Fin g) (u : Fin 1) : shapeCast ⟨3, ![a, g, 1]⟩ x h (ix3 p gi u) = x (ix2 p gi) :=
  shapeCast_apply x h _ _ (by
    have hu : u.val = 0 := by omega
    rw [Shape.rowMajor_val_two, Shape.rowMajor_val_three]
    show p.val * g + gi.val = (p.val * g + gi.val) * 1 + u.val
    rw [hu, Nat.mul_one, Nat.add_zero])

/-- An [a, g, 1] array repeated along its unit axis to [a, g, n] reads, at (p, gi, l), the array at (p, gi, 0). -/
theorem broadcastTo_ag1_agn_apply (x : (⟨3, ![a, g, 1]⟩ : Shape).Idx → α) (h : (⟨3, ![a, g, 1]⟩ : Shape).Broadcasts ⟨3, ![a, g, n]⟩)
    (p : Fin a) (gi : Fin g) (l : Fin n) :
    broadcastTo ⟨3, ![a, g, n]⟩ x h (ix3 p gi l) = x (ix3 p gi (0 : Fin 1)) := by
  refine broadcastTo_apply x h (ix3 p gi l) (ix3 p gi (0 : Fin 1)) fun ax => ?_
  match ax with
  | ⟨0, _⟩ =>
    show p.val = if a = 1 then 0 else p.val
    split
    · have := p.isLt; omega
    · rfl
  | ⟨1, _⟩ =>
    show gi.val = if g = 1 then 0 else gi.val
    split
    · have := gi.isLt; omega
    · rfl
  | ⟨2, _⟩ => rfl

end Cert.GroupAxis

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.TileBody.lean ====
/-
  What the kernel's body computes on one tile, read at one entry.

  A tile is 128 rows of activations against 2048 weight rows (sixteen groups of 128 output columns).  The body forms
  the dense layer on the tile, cuts the 2048 columns into sixteen groups of 128, normalises every group by its own mean
  and variance, and applies the column-wise scale, shift and the first gate.  Read at row p and column q of the tile, the
  result depends on row p of the activations and on the 128 weight rows and biases of the group that holds q: it is the
  gate of the group's normalised lane, scaled and shifted.  The body is cut into four stages (dense plus bias; centring a
  group; rescaling a centred group; scale, shift and gate), each read at an index on its own, and the body is their
  composition.
-/
import proofs.«137644_j3556232922008_2_alg».proof.Proof.Gen.KernelIdeal.Skeleton
import proofs.«137644_j3556232922008_2_alg».proof.Proof.GroupGate
import proofs.«137644_j3556232922008_2_alg».proof.Proof.LibGroupAxis
import proofs.«137644_j3556232922008_2_alg».proof.Proof.LibDenseRows
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.GroupGate

/-- The logistic of an array of extended reals, at an index. -/
theorem logistic_apply {s : Shape} {φ : FTy} (a : FVec Ideal s φ) (i : s.Idx) : logistic a i = Ideal.logistic (a i) := rfl

section Stages

variable (hlt : FTy.bits .bf16 < FTy.bits .f32)
  (hc1 : S2048x2048.ShapeCasts S2048x2048) (hc2 : S1x2048.ShapeCasts S1x2048) (hbr : S1x2048.Broadcasts S128x2048)
  (hg : S128x2048.ShapeCasts S128x16x128) (hr : S128x16x128.Reduces [2] S128x16) (hφ : FKind.Formats .f32)
  (hacc : (0x00000000#32 : BitVec FTy.f32.bits) = FKind.add.neutral .f32 hφ)
  (hk : S128x16.ShapeCasts S128x16x1) (hbk : S128x16x1.Broadcasts S128x16x128) (hu : S128x16x128.ShapeCasts S128x2048)

/-- Stage one: the tile's dense layer, activations against weight rows over the shared feature axis, plus the bias row
    repeated down the tile. -/
def biased (P0 : FVec Ideal S128x2048 .f32) (P1 : FVec Ideal S2048x2048 .bf16) (P2 : FVec Ideal S1x2048 .f32) :
    FVec Ideal S128x2048 .f32 :=
  addf (matmul (DotDims.transposedRhs 128 2048 2048) none (truncf .bf16 P0 hlt) (shapeCast S2048x2048 P1 hc1)
      (constant S128x2048 .f32 0x00000000#32))
    (broadcastTo S128x2048 (shapeCast S1x2048 P2 hc2) hbr)

/-- Stage two: every group of 128 minus its own mean. -/
def centred (v9 : FVec Ideal S128x16x128 .f32) : FVec Ideal S128x16x128 .f32 :=
  subf v9 (broadcastTo S128x16x128 (divf (shapeCast S128x16x1 (multiReduction .add [2] S128x16 v9 0x00000000#32 hr hφ hacc) hk)
    (broadcast S128x16x1 (Scalar.ofBits (F := Ideal) .f32 0x43000000#32))) hbk)

/-- Stage three: a centred group times the inverse square root of its mean square plus the small constant. -/
def rescaled (v15 : FVec Ideal S128x16x128 .f32) : FVec Ideal S128x16x128 .f32 :=
  mulf v15 (broadcastTo S128x16x128 (rsqrt (addf
    (divf (shapeCast S128x16x1 (multiReduction .add [2] S128x16 (mulf v15 v15) 0x00000000#32 hr hφ hacc) hk)
      (broadcast S128x16x1 (Scalar.ofBits (F := Ideal) .f32 0x43000000#32)))
    (broadcast S128x16x1 (Scalar.ofBits (F := Ideal) .f32 0x3727C5AC#32)))) hbk)

/-- Stages two and three between the two re-layings of the tile's columns into groups and back. -/
def normalised (v8 : FVec Ideal S128x2048 .f32) : FVec Ideal S128x2048 .f32 :=
  shapeCast S128x2048 (rescaled hr hφ hacc hk hbk (centred hr hφ hacc hk hbk (shapeCast S128x16x128 v8 hg))) hu

/-- Stage four: the column-wise scale and shift, then the gate. -/
def gated (v26 : FVec Ideal S128x2048 .f32) (P3 P4 : FVec Ideal S1x2048 .f32) : FVec Ideal S128x2048 .f32 :=
  mulf (addf (mulf v26 (broadcastTo S128x2048 (shapeCast S1x2048 P3 hc2) hbr)) (broadcastTo S128x2048 (shapeCast S1x2048 P4 hc2) hbr))
    (logistic (addf (mulf v26 (broadcastTo S128x2048 (shapeCast S1x2048 P3 hc2) hbr)) (broadcastTo S128x2048 (shapeCast S1x2048 P4 hc2) hbr)))

/-- The body's first payload is the four stages composed. -/
theorem pay2_eq (P0 : FVec Ideal S128x2048 .f32) (P1 : FVec Ideal S2048x2048 .bf16) (P2 P3 P4 : FVec Ideal S1x2048 .f32) :
    k0_pay2 (F := Ideal) P0 P1 P2 P3 P4
      = gated hc2 hbr (normalised hg hr hφ hacc hk hbk hu (biased hlt hc1 hc2 hbr P0 P1 P2)) P3 P4 := rfl

/-- Stage one at (p, q): the dense entry of activation row p against weight row q, plus bias q. -/
theorem biased_apply (P0 : FVec Ideal S128x2048 .f32) (P1 : FVec Ideal S2048x2048 .bf16) (P2 : FVec Ideal S1x2048 .f32)
    (p : Fin 128) (q : Fin 2048) :
    biased hlt hc1 hc2 hbr P0 P1 P2 (ix2 p q)
      = dense (fun k : Fin 2048 => P0 (ix2 p k)) (fun k : Fin 2048 => P1 (ix2 q k)) (P2 (ix2 (0 : Fin 1) q)) := by
  unfold biased dense
  rw [shapeCast_self, shapeCast_self]
  exact congrArg₂ (· + ·) (Cert.DenseRows.matmulT_zero_apply none (truncf .bf16 P0 hlt) P1 p q)
    (broadcastTo_1b_ab_apply P2 hbr p q)

/-- Stage two at (p, g, l): the entry minus the mean of its group. -/
theorem centred_apply (v9 : FVec Ideal S128x16x128 .f32) (p : Fin 128) (g : Fin 16) (l : Fin 128) :
    centred hr hφ hacc hk hbk v9 (ix3 p g l) = v9 (ix3 p g l) - Ideal.div (∑ k : Fin 128, v9 (ix3 p g k)) c128 := by
  unfold centred
  refine congrArg (v9 (ix3 p g l) - ·) ?_
  refine (Cert.GroupAxis.broadcastTo_ag1_agn_apply _ hbk p g l).trans ?_
  refine congrArg (Ideal.div · c128) ?_
  refine (Cert.GroupAxis.shapeCast_ag_ag1_apply _ hk p g 0).trans ?_
  exact Cert.GroupAxis.lastSum3_apply v9 _ hr hφ hacc p g

/-- Stage three at (p, g, l): the entry times the inverse square root of its group's mean square plus the constant. -/
theorem rescaled_apply (v15 : FVec Ideal S128x16x128 .f32) (p : Fin 128) (g : Fin 16) (l : Fin 128) :
    rescaled hr hφ hacc hk hbk v15 (ix3 p g l)
      = v15 (ix3 p g l) * Ideal.rsqrt (Ideal.div (∑ k : Fin 128, v15 (ix3 p g k) * v15 (ix3 p g k)) c128 + eps) := by
  unfold rescaled
  refine congrArg (v15 (ix3 p g l) * ·) ?_
  refine (Cert.GroupAxis.broadcastTo_ag1_agn_apply _ hbk p g l).trans ?_
  refine congrArg (fun z => Ideal.rsqrt (Ideal.div z c128 + eps)) ?_
  refine (Cert.GroupAxis.shapeCast_ag_ag1_apply _ hk p g 0).trans ?_
  exact Cert.GroupAxis.lastSum3_apply (mulf v15 v15) _ hr hφ hacc p g

/-- Stages two and three at (p, q) of the tile: lane q mod 128 of the normalised group that holds column q. -/
theorem normalised_apply (v8 : FVec Ideal S128x2048 .f32) (p : Fin 128) (q : Fin 2048) :
    normalised hg hr hφ hacc hk hbk hu v8 (ix2 p q) = gnorm (fun l => v8 (ix2 p (grp 2048 dvd2048 q l))) (lane q) := by
  have hq16 : q.val / 128 < 16 := by have := q.isLt; omega
  have hq : q.val = (⟨q.val / 128, hq16⟩ : Fin 16).val * 128 + (lane q).val := by
    show q.val = q.val / 128 * 128 + q.val % 128
    omega
  have e9 : ∀ k : Fin 128, shapeCast S128x16x128 v8 hg (ix3 p (⟨q.val / 128, hq16⟩ : Fin 16) k) = v8 (ix2 p (grp 2048 dvd2048 q k)) :=
    fun k => Cert.GroupAxis.shapeCast_ab_agn_apply v8 hg (by decide) p ⟨q.val / 128, hq16⟩ k (grp 2048 dvd2048 q k) (by
      show 128 * (q.val / 128) + k.val = q.val / 128 * 128 + k.val
      omega)
  have ec : ∀ k : Fin 128, centred hr hφ hacc hk hbk (shapeCast S128x16x128 v8 hg) (ix3 p (⟨q.val / 128, hq16⟩ : Fin 16) k)
      = v8 (ix2 p (grp 2048 dvd2048 q k)) - gmean (fun l => v8 (ix2 p (grp 2048 dvd2048 q l))) := fun k => by
    rw [centred_apply]
    unfold gmean
    simp only [e9]
  unfold normalised
  refine (Cert.GroupAxis.shapeCast_agn_ab_apply _ hu (by decide) p q ⟨q.val / 128, hq16⟩ (lane q) hq).trans ?_
  rw [rescaled_apply]
  unfold gnorm gvar
  simp only [ec]

/-- Stage four at (p, q): the gate of the entry scaled and shifted by column q's scale and shift. -/
theorem gated_apply (v26 : FVec Ideal S128x2048 .f32) (P3 P4 : FVec Ideal S1x2048 .f32) (p : Fin 128) (q : Fin 2048) :
    gated hc2 hbr v26 P3 P4 (ix2 p q) = swish (v26 (ix2 p q) * P3 (ix2 (0 : Fin 1) q) + P4 (ix2 (0 : Fin 1) q)) := by
  have e3 : broadcastTo S128x2048 (shapeCast S1x2048 P3 hc2) hbr (ix2 p q) = P3 (ix2 (0 : Fin 1) q) := by
    rw [shapeCast_self]; exact broadcastTo_1b_ab_apply P3 hbr p q
  have e4 : broadcastTo S128x2048 (shapeCast S1x2048 P4 hc2) hbr (ix2 p q) = P4 (ix2 (0 : Fin 1) q) := by
    rw [shapeCast_self]; exact broadcastTo_1b_ab_apply P4 hbr p q
  unfold gated swish
  simp only [mulf_apply, addf_apply, logistic_apply, e3, e4]

end Stages

/-- The body's first payload at row p and column q of the tile: the first gate of the normalised lane of q's group,
    scaled and shifted; the group's 128 values are the dense entries of activation row p against the group's weight rows. -/
theorem pay2_apply (P0 : FVec Ideal S128x2048 .f32) (P1 : FVec Ideal S2048x2048 .bf16) (P2 P3 P4 : FVec Ideal S1x2048 .f32)
    (p : Fin 128) (q : Fin 2048) :
    k0_pay2 (F := Ideal) P0 P1 P2 P3 P4 (ix2 p q)
      = swish (gnorm (fun l => dense (fun k : Fin 2048 => P0 (ix2 p k)) (fun k : Fin 2048 => P1 (ix2 (grp 2048 dvd2048 q l) k))
            (P2 (ix2 (0 : Fin 1) (grp 2048 dvd2048 q l)))) (lane q)
          * P3 (ix2 (0 : Fin 1) q) + P4 (ix2 (0 : Fin 1) q)) := by
  have hφ : FKind.Formats .f32 := .inl rfl
  have hacc : (0x00000000#32 : BitVec FTy.f32.bits) = FKind.add.neutral .f32 hφ := rfl
  rw [pay2_eq Facts₀.bitsLt_bf16_f32 Facts₀.shapeCasts_S2048x2048_S2048x2048 Facts₀.shapeCasts_S1x2048_S1x2048
    Facts₀.broadcasts_S1x2048_S128x2048 Facts₀.shapeCasts_S128x2048_S128x16x128 Facts₀.reduces_S128x16x128_S128x16 hφ hacc
    Facts₀.shapeCasts_S128x16_S128x16x1 Facts₀.broadcasts_S128x16x1_S128x16x128 Facts₀.shapeCasts_S128x16x128_S128x2048]
  rw [gated_apply, normalised_apply]
  simp only [biased_apply]

end Cert.KernelIdeal.Tile

end
-- ==== Proof.KernelArray.lean ====
/-
  The kernel's result array as one function of its six argument arrays.

  The grid has 256 points: point t works on row tile t mod 128 (128 rows of activations) and column tile t div 128 (2048
  weight rows, sixteen whole groups of 128 columns), and writes the [128, 2048] block of the result at that row tile and
  column tile.  Because a column tile holds whole groups, an entry's group lies inside its tile, so what a point writes is the
  block of the whole-array function `G`: the entry at row p, column q of the block is `G` at row 128 · (t mod 128) + p,
  column 2048 · (t div 128) + q.  The 256 blocks tile the result array, so the array ends holding `G` everywhere.
-/
import proofs.«137644_j3556232922008_2_alg».proof.Proof.Gen.KernelIdeal.Value
import proofs.«137644_j3556232922008_2_alg».proof.Proof.TileBody
import Idealize.ShloMosaic.Lib.Pipeline.Value
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GroupGate
open Idealize.ShloMosaic.Pipeline (Dat)

/-! ## A tile's entry is the whole array's entry -/

/-- If the six blocks a point loads are the matching blocks of the argument arrays — rows from row tile I, columns from
    column tile J — then the tile's entry at (p, q) is `G` at row 128 · I + p, column 2048 · J + q: the group of column
    2048 · J + q is the group of q moved by the tile's offset, and its lane is q's lane. -/
theorem tile_eq_G (x : (⟨2, ![16384, 2048]⟩ : Shape).Idx → EReal) (w : (⟨2, ![4096, 2048]⟩ : Shape).Idx → EReal)
    (b gw gb mw : (⟨1, ![4096]⟩ : Shape).Idx → EReal)
    (P0 : (⟨2, ![128, 2048]⟩ : Shape).Idx → EReal) (P1 : (⟨2, ![2048, 2048]⟩ : Shape).Idx → EReal)
    (P2 P3 P4 P5 : (⟨2, ![1, 2048]⟩ : Shape).Idx → EReal)
    (I J : ℕ) (p : Fin 128) (q : Fin 2048) (r : Fin 16384) (col : Fin 4096)
    (hr : r.val = I * 128 + p.val) (hc : col.val = J * 2048 + q.val)
    (h0 : ∀ k : Fin 2048, P0 (ix2 p k) = x (ix2 r k))
    (h1 : ∀ (q' : Fin 2048) (c' : Fin 4096), c'.val = J * 2048 + q'.val → ∀ k : Fin 2048, P1 (ix2 q' k) = w (ix2 c' k))
    (h2 : ∀ (q' : Fin 2048) (c' : Fin 4096), c'.val = J * 2048 + q'.val → P2 (ix2 (0 : Fin 1) q') = b (ix1 c'))
    (h3 : ∀ (q' : Fin 2048) (c' : Fin 4096), c'.val = J * 2048 + q'.val → P3 (ix2 (0 : Fin 1) q') = gw (ix1 c'))
    (h4 : ∀ (q' : Fin 2048) (c' : Fin 4096), c'.val = J * 2048 + q'.val → P4 (ix2 (0 : Fin 1) q') = gb (ix1 c'))
    (h5 : ∀ (q' : Fin 2048) (c' : Fin 4096), c'.val = J * 2048 + q'.val → P5 (ix2 (0 : Fin 1) q') = mw (ix1 c')) :
    gate (fun l => dense (fun k : Fin 2048 => P0 (ix2 p k)) (fun k : Fin 2048 => P1 (ix2 (grp 2048 dvd2048 q l) k))
        (P2 (ix2 (0 : Fin 1) (grp 2048 dvd2048 q l)))) (lane q) (P3 (ix2 (0 : Fin 1) q)) (P4 (ix2 (0 : Fin 1) q)) (P5 (ix2 (0 : Fin 1) q))
      = G x w b gw gb mw (ix2 r col) := by
  have hq := q.isLt
  have hg : ∀ l : Fin 128, (grp 4096 dvd4096 col l).val = J * 2048 + (grp 2048 dvd2048 q l).val := fun l => by
    rw [grp_val, grp_val, hc]; omega
  have hl : lane q = lane col := Fin.ext (by rw [lane_val, lane_val, hc]; omega)
  have h1' : ∀ (l : Fin 128) (k : Fin 2048), P1 (ix2 (grp 2048 dvd2048 q l) k) = w (ix2 (grp 4096 dvd4096 col l) k) :=
    fun l k => h1 _ _ (hg l) k
  have h2' : ∀ l : Fin 128, P2 (ix2 (0 : Fin 1) (grp 2048 dvd2048 q l)) = b (ix1 (grp 4096 dvd4096 col l)) :=
    fun l => h2 _ _ (hg l)
  show _ = gate (fun l => dense (fun k : Fin 2048 => x (ix2 r k)) (fun k : Fin 2048 => w (ix2 (grp 4096 dvd4096 col l) k))
      (b (ix1 (grp 4096 dvd4096 col l)))) (lane col) (gw (ix1 col)) (gb (ix1 col)) (mw (ix1 col))
  simp only [h0, h1', h2', h3 q col hc, h4 q col hc, h5 q col hc, hl]

/-! ## What the body leaves in the output block -/

/-- The output block at (p, q) of the tile, from the six loaded blocks: the second gate of the first gate's value times
    the multiplier at q. -/
theorem E6_apply (P0 : FVec Ideal S128x2048 .f32) (P1 : FVec Ideal S2048x2048 .bf16) (P2 P3 P4 P5 : FVec Ideal S1x2048 .f32)
    (p : Fin 128) (q : Fin 2048) :
    E6 (F := Ideal) P0 P1 P2 P3 P4 P5 (ix2 p q)
      = gate (fun l => dense (fun k : Fin 2048 => P0 (ix2 p k)) (fun k : Fin 2048 => P1 (ix2 (grp 2048 dvd2048 q l) k))
          (P2 (ix2 (0 : Fin 1) (grp 2048 dvd2048 q l)))) (lane q) (P3 (ix2 (0 : Fin 1) q)) (P4 (ix2 (0 : Fin 1) q)) (P5 (ix2 (0 : Fin 1) q)) := by
  have i0 : ix6_0 (ix2 p q) = ix2 p q := funext fun a => by match a with | ⟨0, _⟩ => rfl | ⟨1, _⟩ => rfl
  have i1 : ix6_1 (ix2 p q) = ix2 (0 : Fin 1) q := funext fun a => by match a with | ⟨0, _⟩ => rfl | ⟨1, _⟩ => rfl
  have i2 : ix6_2 (ix2 p q) = ix2 p q := funext fun a => by match a with | ⟨0, _⟩ => rfl | ⟨1, _⟩ => rfl
  have i3 : ix6_3 (ix2 p q) = ix2 (0 : Fin 1) q := funext fun a => by match a with | ⟨0, _⟩ => rfl | ⟨1, _⟩ => rfl
  unfold E6
  rw [i0, i1, i2, i3, Tile.pay2_apply]
  rfl

/-- The same at any index of the block. -/
theorem E6_at (P0 : FVec Ideal S128x2048 .f32) (P1 : FVec Ideal S2048x2048 .bf16) (P2 P3 P4 P5 : FVec Ideal S1x2048 .f32)
    (y : S128x2048.Idx) :
    E6 (F := Ideal) P0 P1 P2 P3 P4 P5 y
      = gate (fun l => dense (fun k : Fin 2048 => P0 (ix2 (y 0) k)) (fun k : Fin 2048 => P1 (ix2 (grp 2048 dvd2048 (y 1) l) k))
          (P2 (ix2 (0 : Fin 1) (grp 2048 dvd2048 (y 1) l)))) (lane (y 1 : Fin 2048)) (P3 (ix2 (0 : Fin 1) (y 1))) (P4 (ix2 (0 : Fin 1) (y 1)))
          (P5 (ix2 (0 : Fin 1) (y 1))) := by
  obtain ⟨p, q, rfl⟩ : ∃ (p : Fin 128) (q : Fin 2048), y = ix2 p q := ⟨y 0, y 1, eq_ix2 y⟩
  exact E6_apply P0 P1 P2 P3 P4 P5 p q

/-! ## The arrays the region finds, and the blocks a point loads -/

variable (m : (ℓ : Loc nD τ sig) → Buf (Elt Ideal) ℓ) (ρ : Dev nD → PrngReg)

theorem hz : (![0, 0] : Fin 2 → Nat) = fun _ => 0 := funext fun a => by fin_cases a <;> rfl

/-- The weights as the region finds them: the argument's entries (a change of float format is the identity on the
    extended reals). -/
theorem V_w_apply (c : Dev nD) (i : S4096x2048.Idx) :
    (V m c main_v0 : S4096x2048.Idx → EReal) i = (m ((c : Thread nD τ).loc main_arg1) : S4096x2048.Idx → EReal) i := by
  have e : (V m c main_v0 : S4096x2048.Idx → EReal)
      = truncf (F := Ideal) (s := S4096x2048) .bf16 (m ((c : Thread nD τ).loc main_arg1) : FVec Ideal S4096x2048 .f32) Facts₀.bitsLt_bf16_f32 := by
    dsimp only [Gen.V, Gen.hostOps0]; after_results <;> rfl
  rw [e]; rfl

/-- The bias as the region finds it: the one row of a [1, 4096] array holding the argument. -/
theorem V_b_apply (c : Dev nD) (q : Fin 4096) :
    (V m c main_v1 : S1x4096.Idx → EReal) (ix2 (0 : Fin 1) q) = (m ((c : Thread nD τ).loc main_arg2) : S4096.Idx → EReal) (ix1 q) := by
  have e : (V m c main_v1 : S1x4096.Idx → EReal)
      = shapeCast S1x4096 (m ((c : Thread nD τ).loc main_arg2) : S4096.Idx → EReal) Facts₀.shapeCasts_S4096_S1x4096 := by
    dsimp only [Gen.V, Gen.hostOps0]; after_results <;> rfl
  rw [e]; exact shapeCast_a_1a_apply _ _ 0 q

/-- The scale as the region finds it. -/
theorem V_gw_apply (c : Dev nD) (q : Fin 4096) :
    (V m c main_v2 : S1x4096.Idx → EReal) (ix2 (0 : Fin 1) q) = (m ((c : Thread nD τ).loc main_arg3) : S4096.Idx → EReal) (ix1 q) := by
  have e : (V m c main_v2 : S1x4096.Idx → EReal)
      = shapeCast S1x4096 (m ((c : Thread nD τ).loc main_arg3) : S4096.Idx → EReal) Facts₀.shapeCasts_S4096_S1x4096 := by
    dsimp only [Gen.V, Gen.hostOps0]; after_results <;> rfl
  rw [e]; exact shapeCast_a_1a_apply _ _ 0 q

/-- The shift as the region finds it. -/
theorem V_gb_apply (c : Dev nD) (q : Fin 4096) :
    (V m c main_v3 : S1x4096.Idx → EReal) (ix2 (0 : Fin 1) q) = (m ((c : Thread nD τ).loc main_arg4) : S4096.Idx → EReal) (ix1 q) := by
  have e : (V m c main_v3 : S1x4096.Idx → EReal)
      = shapeCast S1x4096 (m ((c : Thread nD τ).loc main_arg4) : S4096.Idx → EReal) Facts₀.shapeCasts_S4096_S1x4096 := by
    dsimp only [Gen.V, Gen.hostOps0]; after_results <;> rfl
  rw [e]; exact shapeCast_a_1a_apply _ _ 0 q

/-- The multiplier as the region finds it. -/
theorem V_mw_apply (c : Dev nD) (q : Fin 4096) :
    (V m c main_v4 : S1x4096.Idx → EReal) (ix2 (0 : Fin 1) q) = (m ((c : Thread nD τ).loc main_arg5) : S4096.Idx → EReal) (ix1 q) := by
  have e : (V m c main_v4 : S1x4096.Idx → EReal)
      = shapeCast S1x4096 (m ((c : Thread nD τ).loc main_arg5) : S4096.Idx → EReal) Facts₀.shapeCasts_S4096_S1x4096 := by
    dsimp only [Gen.V, Gen.hostOps0]; after_results <;> rfl
  rw [e]; exact shapeCast_a_1a_apply _ _ 0 q

/-- Where each window's block sits at point t: the activations' and the result's row tile is t mod 128, the weights',
    the four vectors' and the result's column tile is t div 128. -/
theorem idx_facts : ∀ t : Fin cfg0.N,
    win0_6.index t (0 : Fin 2) = t.val % 128 ∧ win0_6.index t (1 : Fin 2) = t.val / 128
    ∧ win0_0.index t (0 : Fin 2) = t.val % 128 ∧ win0_0.index t (1 : Fin 2) = 0
    ∧ win0_1.index t (0 : Fin 2) = t.val / 128 ∧ win0_1.index t (1 : Fin 2) = 0
    ∧ win0_2.index t (0 : Fin 2) = 0 ∧ win0_2.index t (1 : Fin 2) = t.val / 128
    ∧ win0_3.index t (0 : Fin 2) = 0 ∧ win0_3.index t (1 : Fin 2) = t.val / 128
    ∧ win0_4.index t (0 : Fin 2) = 0 ∧ win0_4.index t (1 : Fin 2) = t.val / 128
    ∧ win0_5.index t (0 : Fin 2) = 0 ∧ win0_5.index t (1 : Fin 2) = t.val / 128 :=
  (by decide +kernel : ∀ t : Fin grid0.N, _)

/-- The activations' block at point t: rows from the point's row tile. -/
theorem blk_x (c : Dev nD) (t : Fin cfg0.N) (p : Fin 128) (k : Fin 2048) (r : Fin 16384)
    (hr : r.val = win0_0.index t (0 : Fin 2) * 128 + p.val) (h1 : win0_0.index t (1 : Fin 2) = 0) :
    (iblk m c 0 t : S128x2048.Idx → EReal) (ix2 p k) = (m ((c : Thread nD τ).loc main_arg0) : S16384x2048.Idx → EReal) (ix2 r k) := by
  unfold iblk
  rw [View.read_apply]
  show (V m c main_arg0 : S16384x2048.Idx → EReal) _ = _
  rw [V_main_arg0]
  congr 1
  funext a
  apply Fin.ext
  match a with
  | ⟨0, _⟩ => show win0_0.index t (0 : Fin 2) * 128 + 1 * p.val = r.val; omega
  | ⟨1, _⟩ => show win0_0.index t (1 : Fin 2) * 2048 + 1 * k.val = k.val; omega

/-- The weights' block at point t: weight rows from the point's column tile. -/
theorem blk_w (c : Dev nD) (t : Fin cfg0.N) (q : Fin 2048) (k : Fin 2048) (col : Fin 4096)
    (hc : col.val = win0_1.index t (0 : Fin 2) * 2048 + q.val) (h1 : win0_1.index t (1 : Fin 2) = 0) :
    (iblk m c 1 t : S2048x2048.Idx → EReal) (ix2 q k) = (m ((c : Thread nD τ).loc main_arg1) : S4096x2048.Idx → EReal) (ix2 col k) := by
  unfold iblk
  rw [View.read_apply]
  show (V m c main_v0 : S4096x2048.Idx → EReal) _ = _
  rw [V_w_apply]
  congr 1
  funext a
  apply Fin.ext
  match a with
  | ⟨0, _⟩ => show win0_1.index t (0 : Fin 2) * 2048 + 1 * q.val = col.val; omega
  | ⟨1, _⟩ => show win0_1.index t (1 : Fin 2) * 2048 + 1 * k.val = k.val; omega

/-- The bias block at point t: columns from the point's column tile. -/
theorem blk_b (c : Dev nD) (t : Fin cfg0.N) (q : Fin 2048) (col : Fin 4096)
    (hc : col.val = win0_2.index t (1 : Fin 2) * 2048 + q.val) (h0 : win0_2.index t (0 : Fin 2) = 0) :
    (iblk m c 2 t : S1x2048.Idx → EReal) (ix2 (0 : Fin 1) q) = (m ((c : Thread nD τ).loc main_arg2) : S4096.Idx → EReal) (ix1 col) := by
  unfold iblk
  rw [View.read_apply]
  show (V m c main_v1 : S1x4096.Idx → EReal) _ = _
  refine Eq.trans ?_ (V_b_apply m c col)
  congr 1
  funext a
  apply Fin.ext
  match a with
  | ⟨0, _⟩ => show win0_2.index t (0 : Fin 2) * 1 + 1 * 0 = 0; omega
  | ⟨1, _⟩ => show win0_2.index t (1 : Fin 2) * 2048 + 1 * q.val = col.val; omega

/-- The scale block at point t. -/
theorem blk_gw (c : Dev nD) (t : Fin cfg0.N) (q : Fin 2048) (col : Fin 4096)
    (hc : col.val = win0_3.index t (1 : Fin 2) * 2048 + q.val) (h0 : win0_3.index t (0 : Fin 2) = 0) :
    (iblk m c 3 t : S1x2048.Idx → EReal) (ix2 (0 : Fin 1) q) = (m ((c : Thread nD τ).loc main_arg3) : S4096.Idx → EReal) (ix1 col) := by
  unfold iblk
  rw [View.read_apply]
  show (V m c main_v2 : S1x4096.Idx → EReal) _ = _
  refine Eq.trans ?_ (V_gw_apply m c col)
  congr 1
  funext a
  apply Fin.ext
  match a with
  | ⟨0, _⟩ => show win0_3.index t (0 : Fin 2) * 1 + 1 * 0 = 0; omega
  | ⟨1, _⟩ => show win0_3.index t (1 : Fin 2) * 2048 + 1 * q.val = col.val; omega

/-- The shift block at point t. -/
theorem blk_gb (c : Dev nD) (t : Fin cfg0.N) (q : Fin 2048) (col : Fin 4096)
    (hc : col.val = win0_4.index t (1 : Fin 2) * 2048 + q.val) (h0 : win0_4.index t (0 : Fin 2) = 0) :
    (iblk m c 4 t : S1x2048.Idx → EReal) (ix2 (0 : Fin 1) q) = (m ((c : Thread nD τ).loc main_arg4) : S4096.Idx → EReal) (ix1 col) := by
  unfold iblk
  rw [View.read_apply]
  show (V m c main_v3 : S1x4096.Idx → EReal) _ = _
  refine Eq.trans ?_ (V_gb_apply m c col)
  congr 1
  funext a
  apply Fin.ext
  match a with
  | ⟨0, _⟩ => show win0_4.index t (0 : Fin 2) * 1 + 1 * 0 = 0; omega
  | ⟨1, _⟩ => show win0_4.index t (1 : Fin 2) * 2048 + 1 * q.val = col.val; omega

/-- The multiplier block at point t. -/
theorem blk_mw (c : Dev nD) (t : Fin cfg0.N) (q : Fin 2048) (col : Fin 4096)
    (hc : col.val = win0_5.index t (1 : Fin 2) * 2048 + q.val) (h0 : win0_5.index t (0 : Fin 2) = 0) :
    (iblk m c 5 t : S1x2048.Idx → EReal) (ix2 (0 : Fin 1) q) = (m ((c : Thread nD τ).loc main_arg5) : S4096.Idx → EReal) (ix1 col) := by
  unfold iblk
  rw [View.read_apply]
  show (V m c main_v4 : S1x4096.Idx → EReal) _ = _
  refine Eq.trans ?_ (V_mw_apply m c col)
  congr 1
  funext a
  apply Fin.ext
  match a with
  | ⟨0, _⟩ => show win0_5.index t (0 : Fin 2) * 1 + 1 * 0 = 0; omega
  | ⟨1, _⟩ => show win0_5.index t (1 : Fin 2) * 2048 + 1 * q.val = col.val; omega

/-! ## From blocks to the array -/

/-- What point t writes back is block t of `G` of the argument arrays. -/
theorem flushed_eq (c : Dev nD) (t : Fin cfg0.N) :
    (dats m 0 c).flushed 6 t = ((cfg0.win 6).blk t).view.read (Elt Ideal) (G (m ((c : Thread nD τ).loc main_arg0) : S16384x2048.Idx → EReal) (m ((c : Thread nD τ).loc main_arg1) : S4096x2048.Idx → EReal)
      (m ((c : Thread nD τ).loc main_arg2) : S4096.Idx → EReal) (m ((c : Thread nD τ).loc main_arg3) : S4096.Idx → EReal)
      (m ((c : Thread nD τ).loc main_arg4) : S4096.Idx → EReal) (m ((c : Thread nD τ).loc main_arg5) : S4096.Idx → EReal)) := by
  rw [Value.flushed6]
  unfold out0_6
  simp only [View.ld_unit_zero (S := S128x2048) hz, View.ld_unit_zero (S := S2048x2048) hz, View.ld_unit_zero (S := S1x2048) hz]
  obtain ⟨f60, f61, f00, f01, f10, f11, f20, f21, f30, f31, f40, f41, f50, f51⟩ := idx_facts t
  funext y
  have hy0 : (y 0).val < 128 := (y 0).isLt
  have hy1 : (y 1).val < 2048 := (y 1).isLt
  refine ((canon6_eq (F := Ideal) (iblk m c 0 t) (iblk m c 1 t) (iblk m c 2 t) (iblk m c 3 t) (iblk m c 4 t) (iblk m c 5 t) y).trans
    (E6_at (iblk m c 0 t) (iblk m c 1 t) (iblk m c 2 t) (iblk m c 3 t) (iblk m c 4 t) (iblk m c 5 t) y)).trans ?_
  refine Eq.trans ?_ (congrArg (G (m ((c : Thread nD τ).loc main_arg0) : S16384x2048.Idx → EReal) (m ((c : Thread nD τ).loc main_arg1) : S4096x2048.Idx → EReal)
      (m ((c : Thread nD τ).loc main_arg2) : S4096.Idx → EReal) (m ((c : Thread nD τ).loc main_arg3) : S4096.Idx → EReal)
      (m ((c : Thread nD τ).loc main_arg4) : S4096.Idx → EReal) (m ((c : Thread nD τ).loc main_arg5) : S4096.Idx → EReal)) (eq_ix2 (((cfg0.win 6).blk t).view.emb y)).symm)
  have hr : ((((cfg0.win 6).blk t).view.emb y) 0).val = win0_6.index t (0 : Fin 2) * 128 + (y 0).val := by
    show win0_6.index t (0 : Fin 2) * 128 + 1 * (y 0).val = _; omega
  have hc : ((((cfg0.win 6).blk t).view.emb y) 1).val = win0_6.index t (1 : Fin 2) * 2048 + (y 1).val := by
    show win0_6.index t (1 : Fin 2) * 2048 + 1 * (y 1).val = _; omega
  refine tile_eq_G _ _ _ _ _ _ _ _ _ _ _ _ (win0_6.index t (0 : Fin 2)) (win0_6.index t (1 : Fin 2)) (y 0) (y 1) _ _ hr hc
    (fun k => blk_x m c t (y 0) k _ (by rw [hr, f00, f60]) f01)
    (fun q' c' h k => blk_w m c t q' k c' (by rw [h, f10, f61]) f11)
    (fun q' c' h => blk_b m c t q' c' (by rw [h, f21, f61]) f20)
    (fun q' c' h => blk_gw m c t q' c' (by rw [h, f31, f61]) f30)
    (fun q' c' h => blk_gb m c t q' c' (by rw [h, f41, f61]) f40)
    (fun q' c' h => blk_mw m c t q' c' (by rw [h, f51, f61]) f50)

/-- An index of the result array is in point t's block iff each coordinate is in the block's range on its axis. -/
theorem mem_blk (t : Fin cfg0.N) (i : S16384x4096.Idx) :
    i ∈ ((cfg0.win 6).blk t).view.set ↔ ∀ a : Fin 2, win0_6.index t a * S128x2048.size a ≤ (i a).val
      ∧ (i a).val < win0_6.index t a * S128x2048.size a + S128x2048.size a := by
  show i ∈ ((View.whole main_v5).slice (win0_6.rect t)).set ↔ _
  rw [View.set_slice_whole, Rect.mem_set_unit]
  exact Iff.rfl

/-- Every index of the result array lies in the block of the point at its row tile and column tile. -/
theorem covered (i : S16384x4096.Idx) :
    ∃ t : Fin cfg0.N, (cfg0.win 6).flush t = true ∧ i ∈ ((cfg0.win 6).blk t).view.set := by
  have hi0 : (i 0).val < 16384 := (i 0).isLt
  have hi1 : (i 1).val < 4096 := (i 1).isLt
  have hN : cfg0.N = 256 := N_0
  have ht : (i 1).val / 2048 * 128 + (i 0).val / 128 < cfg0.N := by rw [hN]; omega
  obtain ⟨f60, f61, -⟩ := idx_facts ⟨(i 1).val / 2048 * 128 + (i 0).val / 128, ht⟩
  refine ⟨⟨(i 1).val / 2048 * 128 + (i 0).val / 128, ht⟩, flush0_6 _, ?_⟩
  rw [mem_blk]
  intro a
  match a with
  | ⟨0, _⟩ =>
    show win0_6.index ⟨(i 1).val / 2048 * 128 + (i 0).val / 128, ht⟩ (0 : Fin 2) * 128 ≤ (i 0).val
      ∧ (i 0).val < win0_6.index ⟨(i 1).val / 2048 * 128 + (i 0).val / 128, ht⟩ (0 : Fin 2) * 128 + 128
    rw [f60]
    show ((i 1).val / 2048 * 128 + (i 0).val / 128) % 128 * 128 ≤ (i 0).val
      ∧ (i 0).val < ((i 1).val / 2048 * 128 + (i 0).val / 128) % 128 * 128 + 128
    omega
  | ⟨1, _⟩ =>
    show win0_6.index ⟨(i 1).val / 2048 * 128 + (i 0).val / 128, ht⟩ (1 : Fin 2) * 2048 ≤ (i 1).val
      ∧ (i 1).val < win0_6.index ⟨(i 1).val / 2048 * 128 + (i 0).val / 128, ht⟩ (1 : Fin 2) * 2048 + 2048
    rw [f61]
    show ((i 1).val / 2048 * 128 + (i 0).val / 128) / 128 * 2048 ≤ (i 1).val
      ∧ (i 1).val < ((i 1).val / 2048 * 128 + (i 0).val / 128) / 128 * 2048 + 2048
    omega

/-- The result array after the run is `G` of the argument arrays. -/
theorem final (c : Dev nD) :
    (dats m 0 c).arrAt 6 cfg0.N = G (m ((c : Thread nD τ).loc main_arg0) : S16384x2048.Idx → EReal) (m ((c : Thread nD τ).loc main_arg1) : S4096x2048.Idx → EReal)
      (m ((c : Thread nD τ).loc main_arg2) : S4096.Idx → EReal) (m ((c : Thread nD τ).loc main_arg3) : S4096.Idx → EReal)
      (m ((c : Thread nD τ).loc main_arg4) : S4096.Idx → EReal) (m ((c : Thread nD τ).loc main_arg5) : S4096.Idx → EReal) :=
  (dats m 0 c).arrAt_eq_of_cover 6 (G (m ((c : Thread nD τ).loc main_arg0) : S16384x2048.Idx → EReal) (m ((c : Thread nD τ).loc main_arg1) : S4096x2048.Idx → EReal)
      (m ((c : Thread nD τ).loc main_arg2) : S4096.Idx → EReal) (m ((c : Thread nD τ).loc main_arg3) : S4096.Idx → EReal)
      (m ((c : Thread nD τ).loc main_arg4) : S4096.Idx → EReal) (m ((c : Thread nD τ).loc main_arg5) : S4096.Idx → EReal)) (fun t _ => flushed_eq m c t) (fun i => covered i)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0) : S16384x2048.Idx → EReal) (m ((c : Thread nD τ).loc main_arg1) : S4096x2048.Idx → EReal)
      (m ((c : Thread nD τ).loc main_arg2) : S4096.Idx → EReal) (m ((c : Thread nD τ).loc main_arg3) : S4096.Idx → EReal)
      (m ((c : Thread nD τ).loc main_arg4) : S4096.Idx → EReal) (m ((c : Thread nD τ).loc main_arg5) : S4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefRead.lean ====
/-
  The reference's result, read entry by entry, is the one function `G` of its six argument arrays.

  The reference forms the dense layer on the whole [16384, 4096] array, re-lays the 4096 columns as 32 groups of 128,
  takes each group's mean and biased variance by sums along the group, normalises, re-lays back, scales and shifts by
  column, and applies the gate, the column-wise multiplier and the gate again; the gate is spelt as one over one plus the
  exponential of the negated value.  Its stages are read at an index one after the other: the dense entry, a group's
  mean, the centred entry, a group's variance, the normalised entry, and the three column-wise steps.
-/
import proofs.«137644_j3556232922008_2_alg».proof.Proof.Gen.ReferenceIdeal.Read
import proofs.«137644_j3556232922008_2_alg».proof.Proof.GroupGate

noncomputable section

open scoped BigOperators

namespace Cert.ReferenceIdeal.RefValue

open Cert.ReferenceIdeal Cert.ReferenceIdeal.Read Idealize.ShloMosaic Idealize.ShloMosaic.ValueIdx Cert.GroupGate

variable (x0 : (⟨S16384x2048, .f32⟩ : BufTy).Contents (Elt Ideal)) (x1 : (⟨S4096x2048, .f32⟩ : BufTy).Contents (Elt Ideal))
  (x2 x3 x4 x5 : (⟨S4096, .f32⟩ : BufTy).Contents (Elt Ideal))

/-! ## Where each stage reads its operand -/

theorem lhs_at (r : Fin 16384) (q : Fin 4096) (k : Fin 2048) : lidx_main_v1 (ix2 r q) k = ix2 r k :=
  funext fun a => by match a with | ⟨0, _⟩ => rfl | ⟨1, _⟩ => rfl

theorem rhs_at (r : Fin 16384) (q : Fin 4096) (k : Fin 2048) : idx_main_v0 (ridx_main_v1 (ix2 r q) k) = ix2 q k :=
  funext fun a => by match a with | ⟨0, _⟩ => rfl | ⟨1, _⟩ => rfl

theorem bias_at (r : Fin 16384) (q : Fin 4096) : idx_main_v2 (idx_main_v3 (ix2 r q)) = ix1 q :=
  funext fun a => by match a with | ⟨0, _⟩ => rfl

theorem scale_at (r : Fin 16384) (q : Fin 4096) : idx_main_v25 (idx_main_v26 (ix2 r q)) = ix1 q :=
  funext fun a => by match a with | ⟨0, _⟩ => rfl

theorem shift_at (r : Fin 16384) (q : Fin 4096) : idx_main_v28 (idx_main_v29 (ix2 r q)) = ix1 q :=
  funext fun a => by match a with | ⟨0, _⟩ => rfl

theorem mult_at (r : Fin 16384) (q : Fin 4096) : idx_main_v38 (idx_main_v39 (ix2 r q)) = ix1 q :=
  funext fun a => by match a with | ⟨0, _⟩ => rfl

theorem sum1_at (r : Fin 16384) (g : Fin 32) (u : Fin 1) (k : Fin 128) : idx_main_v6 (idx_main_v7 (ix3 r g u)) k = ix3 r g k :=
  funext fun a => by match a with | ⟨0, _⟩ => rfl | ⟨1, _⟩ => rfl | ⟨2, _⟩ => rfl

theorem sum2_at (r : Fin 16384) (g : Fin 32) (u : Fin 1) (k : Fin 128) : idx_main_v13 (idx_main_v14 (ix3 r g u)) k = ix3 r g k :=
  funext fun a => by match a with | ⟨0, _⟩ => rfl | ⟨1, _⟩ => rfl | ⟨2, _⟩ => rfl

theorem col1_at (r : Fin 16384) (g : Fin 32) (l : Fin 128) : idx_main_v10 (ix3 r g l) = ix3 r g (0 : Fin 1) :=
  funext fun a => by match a with | ⟨0, _⟩ => rfl | ⟨1, _⟩ => rfl | ⟨2, _⟩ => rfl

theorem col2_at (r : Fin 16384) (g : Fin 32) (l : Fin 128) : idx_main_v17 (ix3 r g l) = ix3 r g (0 : Fin 1) :=
  funext fun a => by match a with | ⟨0, _⟩ => rfl | ⟨1, _⟩ => rfl | ⟨2, _⟩ => rfl

theorem col3_at (r : Fin 16384) (g : Fin 32) (l : Fin 128) : idx_main_v22 (ix3 r g l) = ix3 r g (0 : Fin 1) :=
  funext fun a => by match a with | ⟨0, _⟩ => rfl | ⟨1, _⟩ => rfl | ⟨2, _⟩ => rfl

/-- Position (r, g, l) of the grouped array is row r, column g · 128 + l. -/
theorem group_at (r : Fin 16384) (g : Fin 32) (l : Fin 128) (c : Fin 4096) (hc : c.val = g.val * 128 + l.val) :
    idx_main_v5 (ix3 r g l) = ix2 r c :=
  funext fun a => Fin.ext (by
    have hr := r.isLt
    have hg := g.isLt
    have hl := l.isLt
    match a with
    | ⟨0, _⟩ => show ((r.val * 32 + g.val) * 128 + l.val) / 4096 = r.val; omega
    | ⟨1, _⟩ => show ((r.val * 32 + g.val) * 128 + l.val) % 4096 = c.val; omega)

/-- Row r, column q of the flat array is position (r, q / 128, q mod 128) of the grouped one. -/
theorem ungroup_at (r : Fin 16384) (q : Fin 4096) (g : Fin 32) (hg : g.val = q.val / 128) :
    idx_main_v24 (ix2 r q) = ix3 r g (lane q) :=
  funext fun a => Fin.ext (by
    have hr := r.isLt
    have hq := q.isLt
    match a with
    | ⟨0, _⟩ => show (r.val * 4096 + q.val) / 4096 = r.val; omega
    | ⟨1, _⟩ => show (r.val * 4096 + q.val) / 128 % 32 = g.val; omega
    | ⟨2, _⟩ => show (r.val * 4096 + q.val) % 128 = q.val % 128; omega)

/-! ## The stages at an index -/

/-- The dense entry at (r, q). -/
theorem dense_apply (r : Fin 16384) (q : Fin 4096) :
    val_main_v4 (F := Ideal) x0 x1 x2 (ix2 r q)
      = dense (fun k : Fin 2048 => x0 (ix2 r k)) (fun k : Fin 2048 => x1 (ix2 q k)) (x2 (ix1 q)) := by
  rw [val_main_v4_apply, val_main_v1_apply, val_main_v3_apply, val_main_v2_apply]
  simp only [val_main_v0_apply, lhs_at, rhs_at, bias_at]
  rfl

/-- The grouped array at (r, g, l) is the dense entry at row r, column g · 128 + l. -/
theorem grouped_apply (r : Fin 16384) (g : Fin 32) (l : Fin 128) (c : Fin 4096) (hc : c.val = g.val * 128 + l.val) :
    val_main_v5 (F := Ideal) x0 x1 x2 (ix3 r g l) = val_main_v4 (F := Ideal) x0 x1 x2 (ix2 r c) := by
  rw [val_main_v5_apply, group_at r g l c hc]

/-- A group's mean. -/
theorem mean_apply (r : Fin 16384) (g : Fin 32) (u : Fin 1) :
    val_main_v9 (F := Ideal) x0 x1 x2 (ix3 r g u) = gmean (fun k => val_main_v5 (F := Ideal) x0 x1 x2 (ix3 r g k)) := by
  rw [val_main_v9_apply, val_main_v7_apply, val_main_v8_apply, val_main_v6_apply, val_main_cst_apply, val_main_cst_0_apply]
  simp only [sum1_at, Ideal.ofBits_def, Ideal.ofBits_zero_f32, zero_add]
  rfl

/-- The centred entry (the reference forms it twice, with the same value). -/
theorem centred_apply (r : Fin 16384) (g : Fin 32) (l : Fin 128) :
    val_main_v11 (F := Ideal) x0 x1 x2 (ix3 r g l)
      = val_main_v5 (F := Ideal) x0 x1 x2 (ix3 r g l) - gmean (fun k => val_main_v5 (F := Ideal) x0 x1 x2 (ix3 r g k)) := by
  rw [val_main_v11_apply, val_main_v10_apply, col1_at, mean_apply]
  rfl

theorem centred_apply' (r : Fin 16384) (g : Fin 32) (l : Fin 128) :
    val_main_v18 (F := Ideal) x0 x1 x2 (ix3 r g l)
      = val_main_v5 (F := Ideal) x0 x1 x2 (ix3 r g l) - gmean (fun k => val_main_v5 (F := Ideal) x0 x1 x2 (ix3 r g k)) := by
  rw [val_main_v18_apply, val_main_v17_apply, col2_at, mean_apply]
  rfl

/-- A group's variance. -/
theorem var_apply (r : Fin 16384) (g : Fin 32) (u : Fin 1) :
    val_main_v16 (F := Ideal) x0 x1 x2 (ix3 r g u) = gvar (fun k => val_main_v5 (F := Ideal) x0 x1 x2 (ix3 r g k)) := by
  rw [val_main_v16_apply, val_main_v14_apply, val_main_v15_apply, val_main_v13_apply, val_main_cst_1_apply, val_main_cst_2_apply]
  simp only [sum2_at, val_main_v12_apply, centred_apply, Ideal.ofBits_def, Ideal.ofBits_zero_f32, zero_add]
  rfl

/-- The normalised entry. -/
theorem normed_apply (r : Fin 16384) (g : Fin 32) (l : Fin 128) :
    val_main_v23 (F := Ideal) x0 x1 x2 (ix3 r g l) = gnorm (fun k => val_main_v5 (F := Ideal) x0 x1 x2 (ix3 r g k)) l := by
  rw [val_main_v23_apply, centred_apply', val_main_v22_apply, col3_at, val_main_v21_apply, val_main_v20_apply, var_apply,
    val_main_v19_apply, val_main_cst_3_apply]
  rfl

/-- The normalised entry at row r, column q of the flat array, over the dense entries of q's group. -/
theorem flat_apply (r : Fin 16384) (q : Fin 4096) :
    val_main_v24 (F := Ideal) x0 x1 x2 (ix2 r q)
      = gnorm (fun l => dense (fun k : Fin 2048 => x0 (ix2 r k)) (fun k : Fin 2048 => x1 (ix2 (grp 4096 dvd4096 q l) k))
          (x2 (ix1 (grp 4096 dvd4096 q l)))) (lane q) := by
  have hq32 : q.val / 128 < 32 := by have := q.isLt; omega
  rw [val_main_v24_apply, ungroup_at r q ⟨q.val / 128, hq32⟩ rfl, normed_apply]
  have e : ∀ k : Fin 128, val_main_v5 (F := Ideal) x0 x1 x2 (ix3 r (⟨q.val / 128, hq32⟩ : Fin 32) k)
      = dense (fun k' : Fin 2048 => x0 (ix2 r k')) (fun k' : Fin 2048 => x1 (ix2 (grp 4096 dvd4096 q k) k'))
          (x2 (ix1 (grp 4096 dvd4096 q k))) := fun k => by
    rw [grouped_apply x0 x1 x2 r ⟨q.val / 128, hq32⟩ k (grp 4096 dvd4096 q k) (by
      show 128 * (q.val / 128) + k.val = q.val / 128 * 128 + k.val
      omega), dense_apply]
  simp only [e]

/-- The whole reference at (r, q). -/
theorem ref_apply (r : Fin 16384) (q : Fin 4096) :
    val_main_v47 (F := Ideal) x0 x1 x2 x3 x4 x5 (ix2 r q) = G x0 x1 x2 x3 x4 x5 (ix2 r q) := by
  have e30 : val_main_v30 (F := Ideal) x0 x1 x2 x3 x4 (ix2 r q)
      = val_main_v24 (F := Ideal) x0 x1 x2 (ix2 r q) * x3 (ix1 q) + x4 (ix1 q) := by
    rw [val_main_v30_apply, val_main_v27_apply, val_main_v26_apply, val_main_v25_apply, val_main_v29_apply, val_main_v28_apply,
      scale_at, shift_at]
    rfl
  have e37 : val_main_v37 (F := Ideal) x0 x1 x2 x3 x4 (ix2 r q) = swish (val_main_v30 (F := Ideal) x0 x1 x2 x3 x4 (ix2 r q)) := by
    rw [val_main_v37_apply, val_main_v36_apply, val_main_v35_apply, val_main_cst_5_apply, val_main_v34_apply, val_main_v33_apply,
      val_main_cst_4_apply, val_main_v32_apply, val_main_v31_apply]
    exact swish_spelt _
  have e40 : val_main_v40 (F := Ideal) x0 x1 x2 x3 x4 x5 (ix2 r q)
      = val_main_v37 (F := Ideal) x0 x1 x2 x3 x4 (ix2 r q) * x5 (ix1 q) := by
    rw [val_main_v40_apply, val_main_v39_apply, val_main_v38_apply, mult_at]
    rfl
  have e47 : val_main_v47 (F := Ideal) x0 x1 x2 x3 x4 x5 (ix2 r q) = swish (val_main_v40 (F := Ideal) x0 x1 x2 x3 x4 x5 (ix2 r q)) := by
    rw [val_main_v47_apply, val_main_v46_apply, val_main_v45_apply, val_main_cst_7_apply, val_main_v44_apply, val_main_v43_apply,
      val_main_cst_6_apply, val_main_v42_apply, val_main_v41_apply]
    exact swish_spelt _
  rw [e47, e40, e37, e30, flat_apply]
  rfl

/-- The reference's result array is `G` of its arguments. -/
theorem ref_eq : val_main_v47 (F := Ideal) x0 x1 x2 x3 x4 x5 = G x0 x1 x2 x3 x4 x5 :=
  funext fun i => by
    rw [eq_ix2 i]
    exact ref_apply x0 x1 x2 x3 x4 x5 (i 0) (i 1)

end Cert.ReferenceIdeal.RefValue

end
-- ==== Proof.lean ====
/-
  A fused dense layer, group normalisation and two gates, tiled, against the same computation on whole arrays.

  Both programs compute, on the extended reals, one function `G` of the six argument arrays (Proof/GroupGate.lean):
  the dense layer of an activation row against the weight rows plus the bias, the output columns cut into consecutive
  groups of 128, each group normalised by its own mean and biased variance (plus a small constant, under an inverse
  square root), a column-wise scale and shift, the gate v · logistic v, a column-wise multiplier, and the gate again.

  The kernel works tile by tile — 128 rows against 2048 output columns, sixteen whole groups — so every group an entry
  needs lies inside the entry's tile, and each tile's result is the matching block of `G` (Proof/TileBody.lean reads
  the body at an entry; Proof/KernelArray.lean reads the blocks off the argument arrays and shows that the 256 blocks
  tile the result).  The reference works on whole arrays with 32 groups per row and spells the logistic as one over one
  plus an exponential, which is the same function (Proof/RefRead.lean).  No law is used beyond reading each sum as the
  plain sum over its index, in whatever order it was taken: nothing needs the inputs to be finite.

  The three frames are the programs' runs; the kernel's idealization rewrote nothing, so there is nothing to preserve.
-/
import proofs.«137644_j3556232922008_2_alg».proof.Defs
import proofs.«137644_j3556232922008_2_alg».proof.Proof.Gen.Kernel
import proofs.«137644_j3556232922008_2_alg».proof.Proof.Gen.Kernel.Skeleton
import proofs.«137644_j3556232922008_2_alg».proof.Proof.Gen.Kernel.Launch
import proofs.«137644_j3556232922008_2_alg».proof.Proof.Gen.Kernel.Points
import proofs.«137644_j3556232922008_2_alg».proof.Proof.Gen.Kernel.Frame
import proofs.«137644_j3556232922008_2_alg».proof.Proof.Gen.KernelIdeal
import proofs.«137644_j3556232922008_2_alg».proof.Proof.Gen.KernelIdeal.Skeleton
import proofs.«137644_j3556232922008_2_alg».proof.Proof.Gen.KernelIdeal.Launch
import proofs.«137644_j3556232922008_2_alg».proof.Proof.Gen.KernelIdeal.Points
import proofs.«137644_j3556232922008_2_alg».proof.Proof.Gen.KernelIdeal.Frame
import proofs.«137644_j3556232922008_2_alg».proof.Proof.Gen.KernelIdeal.Value
import proofs.«137644_j3556232922008_2_alg».proof.Proof.Gen.ReferenceIdeal
import proofs.«137644_j3556232922008_2_alg».proof.Proof.Gen.ReferenceIdeal.Run
import proofs.«137644_j3556232922008_2_alg».proof.Proof.Gen.ReferenceIdeal.Read
import proofs.«137644_j3556232922008_2_alg».proof.Proof.Gen.Pre_finite_inputs
import proofs.«137644_j3556232922008_2_alg».proof.Proof.KernelArray
import proofs.«137644_j3556232922008_2_alg».proof.Proof.RefRead
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the kernel's result array ends at `G` of the arguments (the blocks
    its grid points write tile the array) and the reference's at its stages' composition, which is `G` entry by entry. -/
theorem algebraic : Cert.algebraic_KernelIdeal_ReferenceIdeal := by
  intro m ρ m' ρ' _ hagree
  refine ⟨fun c => Cert.GroupGate.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.ref_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
